-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048 : Shape := ⟨1, ![2048]⟩
abbrev S_ : Shape := ⟨0, ![]⟩
abbrev S512x256 : Shape := ⟨2, ![512, 256]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  reducesTo_S_S_d : S_.ReducesTo [] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S2048x256 .f32) (main_arg1 : IVec S2048 32) (main_arg2 : FVec F S_ .f32) (main_arg3 : FVec F S_ .f32) (main_arg4 : FVec F S512x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg3
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S512x256 .f32 := Host.absf main_arg4
  let main_cst_4 : FVec F S_ .f32 := constant S_ .f32 0x7F800000#32
  let main_v13 : FVec F S512x256 .f32 := broadcastInDim S512x256 ![] bcast_S_S512x256 main_cst_4
  let main_v14 : IVec S512x256 1 := cmpf .olt main_v12 main_v13
  let main_c_5 : IVec S_ 1 := constantI S_ 1 1#1
  let main_v15 : IVec S_ 1 := (fun x v => Host.reduce IntOp.andi x v reducesTo_S512x256_S_d0_1 h_S_) main_v14 main_c_5
  fn_part1 (F := F) main_v11 main_v15
-- ==== Kernel.lean ====
abbrev S2048x256 : Shape := ⟨2, ![2048, 256]⟩
abbrev S2048 : Shape := ⟨1, ![2048]⟩
abbrev S_ : Shape := ⟨0, ![]⟩
abbrev S512x256 : Shape := ⟨2, ![512, 256]⟩
abbrev S2048x1 : Shape := ⟨2, ![2048, 1]⟩
abbrev S16x256 : Shape := ⟨2, ![16, 256]⟩
abbrev S16x1 : Shape := ⟨2, ![16, 1]⟩
abbrev S16x1x256 : Shape := ⟨3, ![16, 1, 256]⟩
abbrev S1x512x256 : Shape := ⟨3, ![1, 512, 256]⟩
abbrev S16x512x256 : Shape := ⟨3, ![16, 512, 256]⟩
abbrev S16x512 : Shape := ⟨2, ![16, 512]⟩
abbrev S16 : Shape := ⟨1, ![16]⟩

abbrev nBuf : Space → Nat
  | .hbm => 35
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S512x256, .f32⟩
  | .hbm, ⟨5, _⟩ => ⟨S2048x1, .i32⟩
  | .hbm, ⟨6, _⟩ => ⟨S2048x1, .f32⟩
  | .hbm, ⟨7, _⟩ => ⟨S2048x1, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S512x256, .f32⟩
  | .local _ .vmem, ⟨3, _⟩ => ⟨S16x1, .i32⟩
  | .local _ .vmem, ⟨4, _⟩ => ⟨S16x1, .i32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S2048x1 : S2048.ShapeCasts S2048x1
  inb_S16x256_S16x256_0_0 : ∀ a, (![0, 0] : Fin 2 → Nat) a + S16x256.size a ≤ S16x256.size a
  h_S16x256 : 0 < S16x256.numel
  inb_S512x256_S512x256_0_0 : ∀ a, (![0, 0] : Fin 2 → Nat) a + S512x256.size a ≤ S512x256.size a
  h_S512x256 : 0 < S512x256.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x256_S16x1x256 : S16x256.ShapeCasts S16x1x256
  shapeCasts_S512x256_S1x512x256 : S512x256.ShapeCasts S1x512x256
  broadcasts_S16x1x256_S16x512x256 : S16x1x256.Broadcasts S16x512x256
  broadcasts_S1x512x256_S16x512x256 : S1x512x256.Broadcasts S16x512x256
  reduces_S16x512x256_S16x512 : S16x512x256.Reduces [2] S16x512
  iota_S16x512_d1_w32 : S16x512.Iotas .tc 32 [1]
  broadcasts_S16x1_S16x512 : S16x1.Broadcasts S16x512
  reduces_S16x512_S16 : S16x512.Reduces [1] S16
  shapeCasts_S16_S16x1 : S16.ShapeCasts S16x1
  shapeCasts_S2048x1_S2048 : S2048x1.ShapeCasts S2048
  reducesTo_S2048_S_d0 : S2048.ReducesTo [0] S_
  h_S_ : 0 < S_.numel
  bcast_S_S2048 : S_.BroadcastsInDim S2048 (![] : Fin 0 → Fin S2048.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S2048x256.size a
  hwx0_0 : ∀ i : grid0.Coords, EltTy.bits .f32 = 32 ∨ (Rect.block (s := S2048x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S2048x1.size a
  hwx0_2 : ∀ i : grid0.Coords, EltTy.bits .i32 = 32 ∨ (Rect.block (s := S2048x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S2048x1.size a
  hwx0_3 : ∀ i : grid0.Coords, EltTy.bits .f32 = 32 ∨ (Rect.block (s := S2048x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S2048x1.size a
  hwx0_4 : ∀ i : grid0.Coords, EltTy.bits .f32 = 32 ∨ (Rect.block (s := S2048x1) S16x1.size (cc0_transform_4 i) (hinb0_4 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048 : Shape := ⟨1, ![2048]⟩
abbrev S_ : Shape := ⟨0, ![]⟩
abbrev S512x256 : Shape := ⟨2, ![512, 256]⟩
abbrev S2048x1x256 : Shape := ⟨3, ![2048, 1, 256]⟩
abbrev S1x512x256 : Shape := ⟨3, ![1, 512, 256]⟩
abbrev S2048x512x256 : Shape := ⟨3, ![2048, 512, 256]⟩
abbrev S2048x512 : Shape := ⟨2, ![2048, 512]⟩
abbrev S2048x1 : Shape := ⟨2, ![2048, 1]⟩
abbrev S512 : Shape := ⟨1, ![512]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S512x256, .f32⟩
  | .hbm, ⟨5, _⟩ => ⟨S2048x1x256, .f32⟩
  | .hbm, ⟨6, _⟩ => ⟨S1x512x256, .f32⟩
  | .hbm, ⟨7, _⟩ => ⟨S2048x512x256, .f32⟩
  | .hbm, ⟨8, _⟩ => ⟨S2048x512x256, .f32⟩
  | .hbm, ⟨9, _⟩ => ⟨S2048x512x256, .f32⟩
  | .hbm, ⟨10, _⟩ => ⟨S2048x512x256, .f32⟩
  | .hbm, ⟨11, _⟩ => ⟨S_, .f32⟩
  | .hbm, ⟨12, _⟩ => ⟨S2048x512, .f32⟩
  | .hbm, ⟨13, _⟩ => ⟨S2048x1, .i32⟩
  | .hbm, ⟨14, _⟩ => ⟨S512, .i32⟩
  | .hbm, ⟨15, _⟩ => ⟨S1x512, .i32⟩
  | .hbm, ⟨16, _⟩ => ⟨S2048x512, .i32⟩
  | .hbm, ⟨17, _⟩ => ⟨S2048x512, .i32⟩
  | .hbm, ⟨18, _⟩ => ⟨S2048x512, .i1⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_cst_12 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S2048x256_S2048x1x256_0_2 : S2048x256.BroadcastsInDim S2048x1x256 (![0, 2] : Fin 2 → Fin S2048x1x256.rank)
  bcast_S512x256_S1x512x256_1_2 : S512x256.BroadcastsInDim S1x512x256 (![1, 2] : Fin 2 → Fin S1x512x256.rank)
  bcast_S2048x1x256_S2048x512x256_0_1_2 : S2048x1x256.BroadcastsInDim S2048x512x256 (![0, 1, 2] : Fin 3 → Fin S2048x512x256.rank)
  bcast_S1x512x256_S2048x512x256_0_1_2 : S1x512x256.BroadcastsInDim S2048x512x256 (![0, 1, 2] : Fin 3 → Fin S2048x512x256.rank)
  reducesTo_S2048x512x256_S2048x512_d2 : S2048x512x256.ReducesTo [2] S2048x512
  h_S_ : 0 < S_.numel
  bcast_S2048_S2048x1_0 : S2048.BroadcastsInDim S2048x1 (![0] : Fin 1 → Fin S2048x1.rank)
  bcast_S512_S1x512_1 : S512.BroadcastsInDim S1x512 (![1] : Fin 1 → Fin S1x512.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  reducesTo_S2048x512_S2048_d1 : S2048x512.ReducesTo [1] S2048
  reducesTo_S2048_S_d0 : S2048.ReducesTo [0] S_
  bcast_S_S2048 : S_.BroadcastsInDim S2048 (![] : Fin 0 → Fin S2048.rank)

variable [Facts₀]

class Facts : Prop extends Facts₀ where

variable [Facts]
-- ==== Proof.Blocks.lean ====
/-
  Where each input block sits in its argument array. The grid has 128 points; at point t the row window is rows
  16·t … 16·t + 15 of `x` (all 256 columns), the centre window is the whole [512, 256] array at every point, and the
  label window is rows 16·t … 16·t + 15 of the labels viewed as a [2048, 1] column — that column is the label vector
  reshaped by the one host operation before the kernel, so its entry (r, 0) is label r. An element of a block sits in
  the array, on each axis, at block index × block size + its coordinate inside the block.
-/
import proofs.«114780_j47090021433771_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The printed index maps, decided over the 128 points: the row, label and both output windows are at block t on
    the row axis, the centre window at block 0; every window is at block 0 on its second axis. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p, column l of the row block at point t is row 16·t + p, column l of `x`. -/
theorem rows_read (c : Dev nD) (t : Fin cfg0.N) (p : Fin 16) (l : Fin 256) (r : Fin 2048) (hr : r.val = t.val * 16 + p.val) :
    (iblk m c 0 t : FVec Ideal S16x256 .f32) (ix2 p l)
      = (m ((c : Thread nD τ).loc main_arg0) : S2048x256.Idx → EReal) (ix2 r l) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 16 + 1 * p.val = r.val; omega
  | ⟨1, _⟩ => show win0_0.index t (1 : Fin 2) * 256 + 1 * l.val = l.val; omega

/-- The centre block at every point is the centre array. -/
theorem cens_read (c : Dev nD) (t : Fin cfg0.N) (k : Fin 512) (l : Fin 256) :
    (iblk m c 1 t : FVec Ideal S512x256 .f32) (ix2 k l)
      = (m ((c : Thread nD τ).loc main_arg4) : S512x256.Idx → EReal) (ix2 k l) := by
  obtain ⟨-, -, e0, e1, -⟩ := idx_facts t
  unfold iblk
  rw [View.read_apply]
  show V m c main_arg4 _ = _
  rw [V_main_arg4]
  refine congrArg _ (funext fun a => Fin.ext ?_)
  match a with
  | ⟨0, _⟩ => show win0_1.index t (0 : Fin 2) * 512 + 1 * k.val = k.val; omega
  | ⟨1, _⟩ => show win0_1.index t (1 : Fin 2) * 256 + 1 * l.val = l.val; omega

/-- The label column as the kernel finds it: the label vector reshaped to [2048, 1] by the host. -/
theorem labels_entry (c : Dev nD) :
    (V m c main_v0 : S2048x1.Idx → BitVec 32)
      = shapeCast S2048x1 (m ((c : Thread nD τ).loc main_arg1) : S2048.Idx → BitVec 32) shapeCasts_S2048_S2048x1 := by
  show StableHlo.after hostOps0 (fun b => m (c, b)) (Proc.devRef .tc main_v0) = _
  after_results
  rfl

/-- Entry (p, 0) of the label block at point t is label 16·t + p. -/
theorem labs_read (c : Dev nD) (t : Fin cfg0.N) (p : Fin 16) (r : Fin 2048) (hr : r.val = t.val * 16 + p.val) :
    (iblk m c 2 t : IVec S16x1 32) (ix2 p (0 : Fin 1))
      = (m ((c : Thread nD τ).loc main_arg1) : S2048.Idx → BitVec 32) (ix1 r) := by
  obtain ⟨-, -, -, -, e0, e1, -⟩ := idx_facts t
  unfold iblk
  rw [View.read_apply]
  show V m c main_v0 _ = _
  rw [labels_entry]
  refine shapeCast_apply _ shapeCasts_S2048_S2048x1 _ (ix1 r) ?_
  rw [Shape.rowMajor_val_one, Shape.rowMajor_val_two]
  show r.val = (win0_2.index t (0 : Fin 2) * 16 + 1 * p.val) * 1 + (win0_2.index t (1 : Fin 2) * 1 + 1 * 0)
  omega

end Cert.KernelIdeal.Hand

end
-- ==== Proof.Spec.lean ====
/-
  The mathematics both programs compute, stated once over the argument arrays with no program in sight.

  For a batch of 2048 feature rows `x r` (256 features each), 512 class centres `cen k` and an integer label per
  row, write `d r k = Σ_l |x r l − cen k l|` for the L1 distance of row `r` to centre `k`, and call centre `k` the
  row's own when the label word of the row equals the word of `k`. Then

    own r          = Σ_k (if k is r's own then d r k else 0)        -- distance to the own centre
    nearestOther r = min_k (if k is r's own then +∞ else d r k)      -- least distance to another centre, from +∞

  and the loss is a function of the margin scalar and these two length-2048 vectors only: with
  δ = mean nearestOther − mean own, the margin becomes margin·(1 + δ) when δ > 0, and the loss is the mean over rows of
  max (margin' + own r − nearestOther r, 0). That last function is `lossOf` below; both programs apply it verbatim,
  so nothing in this certificate ever opens it.

  All sums and minima are over the extended reals, where + and min are commutative and associative: the order in
  which a program accumulates them does not matter, and no finiteness of the inputs is needed.
-/
import Idealize.ShloMosaic.PureOps.Ideal.Laws
import Idealize.ShloMosaic.Lib.ValueIdx

noncomputable section

namespace Cert.CenterMargin

open Idealize.ShloMosaic Idealize.ShloMosaic.ValueIdx

abbrev SX : Shape := ⟨2, ![2048, 256]⟩
abbrev SCen : Shape := ⟨2, ![512, 256]⟩
abbrev SRow : Shape := ⟨1, ![2048]⟩
abbrev SCol : Shape := ⟨2, ![2048, 1]⟩
abbrev SScalar : Shape := ⟨0, ![]⟩

/-- The bit pattern of +0.0 and of +∞ in f32, as both programs spell them. -/
abbrev zeroBits : BitVec 32 := 0x00000000#32
abbrev infBits : BitVec 32 := 0x7F800000#32

/-- L1 distance of row `r` of `x` to centre `k`: the sum over the 256 features of |x r l − cen k l|
    (an absolute value on the extended reals is `max a (−a)`). -/
def l1 (x : SX.Idx → EReal) (cen : SCen.Idx → EReal) (r : Fin 2048) (k : Fin 512) : EReal :=
  ∑ l : Fin 256, max (x (ix2 r l) - cen (ix2 k l)) (-(x (ix2 r l) - cen (ix2 k l)))

/-- Whether centre `k` is row `r`'s own: the row's 32-bit label word against the word of `k`, as one bit. -/
def isOwn (lab : SRow.Idx → BitVec 32) (r : Fin 2048) (k : Fin 512) : BitVec 1 :=
  IntOp.cmpi .eq (lab (ix1 r)) (BitVec.ofNat 32 k.val)

/-- Distance of row `r` to its own centre: the L1 distances summed over the centres with every other centre's
    term replaced by zero. -/
def own (x : SX.Idx → EReal) (lab : SRow.Idx → BitVec 32) (cen : SCen.Idx → EReal) (r : Fin 2048) : EReal :=
  ∑ k : Fin 512, Scalar.select (isOwn lab r k) (l1 x cen r k) (Ideal.ofBits .f32 zeroBits)

/-- Least distance of row `r` to a centre that is not its own: the minimum, starting from +∞, over the centres with
    the own centre's term replaced by +∞. -/
def nearestOther (x : SX.Idx → EReal) (lab : SRow.Idx → BitVec 32) (cen : SCen.Idx → EReal) (r : Fin 2048) : EReal :=
  (Finset.univ : Finset (Fin 512)).fold min (Ideal.ofBits .f32 infBits)
    (fun k => Scalar.select (isOwn lab r k) (Ideal.ofBits .f32 infBits) (l1 x cen r k))

/-- The two per-row vectors as arrays of shape [2048]. -/
def ownVec (x : SX.Idx → EReal) (lab : SRow.Idx → BitVec 32) (cen : SCen.Idx → EReal) : SRow.Idx → EReal :=
  fun i => own x lab cen (i 0)
def nearestOtherVec (x : SX.Idx → EReal) (lab : SRow.Idx → BitVec 32) (cen : SCen.Idx → EReal) : SRow.Idx → EReal :=
  fun i => nearestOther x lab cen (i 0)

/-- The loss as a function of the margin and the two per-row vectors: δ = mean dm − mean d; the margin is scaled by
    (1 + δ) when δ > 0; the result is the mean over the rows of max (margin' + d − dm, 0). Every mean is a sum from
    +0.0 divided by 2048. Both programs end with exactly these operations, in this order. -/
def lossOf (hred : SRow.ReducesTo [0] SScalar) (hS : 0 < SScalar.numel)
    (hb : SScalar.BroadcastsInDim SRow (![] : Fin 0 → Fin SRow.rank))
    (margin : FVec Ideal SScalar .f32) (d dm : FVec Ideal SRow .f32) : FVec Ideal SScalar .f32 :=
  Host.divf (F := Ideal)
    (Host.reduceAdd (F := Ideal)
      (maximumf
        (subf
          (addf
            (broadcastInDim SRow ![] hb
              (select
                (cmpf .ogt
                  (subf
                    (Host.divf (F := Ideal) (Host.reduceAdd (F := Ideal) dm (constant (F := Ideal) SScalar .f32 0x00000000#32) hred hS)
                      (constant (F := Ideal) SScalar .f32 0x45000000#32))
                    (Host.divf (F := Ideal) (Host.reduceAdd (F := Ideal) d (constant (F := Ideal) SScalar .f32 0x00000000#32) hred hS)
                      (constant (F := Ideal) SScalar .f32 0x45000000#32)))
                  (constant (F := Ideal) SScalar .f32 0x00000000#32))
                (mulf margin
                  (addf (constant (F := Ideal) SScalar .f32 0x3F800000#32)
                    (subf
                      (Host.divf (F := Ideal) (Host.reduceAdd (F := Ideal) dm (constant (F := Ideal) SScalar .f32 0x00000000#32) hred hS)
                        (constant (F := Ideal) SScalar .f32 0x45000000#32))
                      (Host.divf (F := Ideal) (Host.reduceAdd (F := Ideal) d (constant (F := Ideal) SScalar .f32 0x00000000#32) hred hS)
                        (constant (F := Ideal) SScalar .f32 0x45000000#32)))))
                margin))
            d)
          dm)
        (broadcastInDim SRow ![] hb (constant (F := Ideal) SScalar .f32 0x00000000#32)))
      (constant (F := Ideal) SScalar .f32 0x00000000#32) hred hS)
    (constant (F := Ideal) SScalar .f32 0x45000000#32)

end Cert.CenterMargin

end
-- ==== Proof.Payload.lean ====
/-
  What the kernel body computes from its three loaded blocks, read at an index. With `xb` a block of 16 rows of `x`,
  `cb` all 512 centres and `lb` the 16 label words of those rows (a [16, 1] column):

    the distance block at (p, k) is Σ_l |xb p l − cb k l| — the two operands are `xb` and `cb` broadcast to
      [16, 512, 256] through a unit axis, so at (p, k, l) they read `xb p l` and `cb k l`, and a sum over the last
      axis is the sum over that axis's coordinates;
    the mask at (p, k) compares the label word of row p with the word of k (an iota along the centre axis reads
      its coordinate);
    the first stored column at (p, 0) is the sum over k of the distance block with the other centres' terms zeroed,
    the second the fold of `min` from +∞ over k of the distance block with the own centre's term at +∞
      (a minimum over one axis is the fold over that axis's coordinates, in any order).
-/
import proofs.«114780_j47090021433771_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«114780_j47090021433771_1_alg».proof.Proof.Spec

noncomputable section

namespace Cert.KernelIdeal.Hand

open Cert.KernelIdeal Cert.KernelIdeal.Gen
open Idealize.ShloMosaic Idealize.ShloMosaic.ValueIdx Cert.CenterMargin

/-- The row block broadcast along the centre axis reads, at (p, k, l), the block at (p, l). -/
theorem rows_at (xb : FVec Ideal S16x256 .f32) (p : Fin 16) (k : Fin 512) (l : Fin 256) :
    broadcastTo S16x512x256 (shapeCast S16x1x256 xb shapeCasts_S16x256_S16x1x256) broadcasts_S16x1x256_S16x512x256 (ix3 p k l)
      = xb (ix2 p l) := by
  refine (broadcastTo_apply _ broadcasts_S16x1x256_S16x512x256 (ix3 p k l) (ix3 p (0 : Fin 1) l) (fun a => ?_)).trans ?_
  · match a with
    | ⟨0, _⟩ => show p.val = if (16 : Nat) = 1 then 0 else p.val; rw [if_neg (by decide)]
    | ⟨1, _⟩ => show 0 = if (1 : Nat) = 1 then 0 else k.val; rw [if_pos rfl]
    | ⟨2, _⟩ => show l.val = if (256 : Nat) = 1 then 0 else l.val; rw [if_neg (by decide)]
  · exact shapeCast_apply xb shapeCasts_S16x256_S16x1x256 (ix3 p (0 : Fin 1) l) (ix2 p l) (by
      rw [Shape.rowMajor_val_two, Shape.rowMajor_val_three]
      show p.val * 256 + l.val = (p.val * 1 + 0) * 256 + l.val
      omega)

/-- The centres broadcast along the row axis read, at (p, k, l), the centres at (k, l). -/
theorem cens_at (cb : FVec Ideal S512x256 .f32) (p : Fin 16) (k : Fin 512) (l : Fin 256) :
    broadcastTo S16x512x256 (shapeCast S1x512x256 cb shapeCasts_S512x256_S1x512x256) broadcasts_S1x512x256_S16x512x256 (ix3 p k l)
      = cb (ix2 k l) := by
  refine (broadcastTo_apply _ broadcasts_S1x512x256_S16x512x256 (ix3 p k l) (ix3 (0 : Fin 1) k l) (fun a => ?_)).trans ?_
  · match a with
    | ⟨0, _⟩ => show 0 = if (1 : Nat) = 1 then 0 else p.val; rw [if_pos rfl]
    | ⟨1, _⟩ => show k.val = if (512 : Nat) = 1 then 0 else k.val; rw [if_neg (by decide)]
    | ⟨2, _⟩ => show l.val = if (256 : Nat) = 1 then 0 else l.val; rw [if_neg (by decide)]
  · exact shapeCast_ab_1ab_apply cb shapeCasts_S512x256_S1x512x256 (0 : Fin 1) k l

/-- The distance block at (p, k): the L1 distance of the block's row p to centre k. -/
theorem distBlock_at (xb : FVec Ideal S16x256 .f32) (cb : FVec Ideal S512x256 .f32) (p : Fin 16) (k : Fin 512) :
    k0_pay1 (F := Ideal) xb cb (ix2 p k)
      = ∑ l : Fin 256, max (xb (ix2 p l) - cb (ix2 k l)) (-(xb (ix2 p l) - cb (ix2 k l))) := by
  unfold k0_pay1
  refine (Ideal.multiReduction_add_single _ _ reduces_S16x512x256_S16x512 _ _ (ix2 p k)).trans ?_
  refine Finset.sum_congr (s₁ := (Finset.univ : Finset (Fin 256))) rfl fun (l : Fin 256) _ => ?_
  have e : reduces_S16x512x256_S16x512.lift (ix2 p k) l = (ix3 p k l : S16x512x256.Idx) :=
    funext fun a => Fin.ext (by match a with | ⟨0, _⟩ => rfl | ⟨1, _⟩ => rfl | ⟨2, _⟩ => rfl)
  rw [e]
  show max (broadcastTo S16x512x256 (shapeCast S16x1x256 xb shapeCasts_S16x256_S16x1x256) broadcasts_S16x1x256_S16x512x256 (ix3 p k l)
        - broadcastTo S16x512x256 (shapeCast S1x512x256 cb shapeCasts_S512x256_S1x512x256) broadcasts_S1x512x256_S16x512x256 (ix3 p k l))
      (-(broadcastTo S16x512x256 (shapeCast S16x1x256 xb shapeCasts_S16x256_S16x1x256) broadcasts_S16x1x256_S16x512x256 (ix3 p k l)
        - broadcastTo S16x512x256 (shapeCast S1x512x256 cb shapeCasts_S512x256_S1x512x256) broadcasts_S1x512x256_S16x512x256 (ix3 p k l))) = _
  rw [rows_at, cens_at]

/-- The mask at (p, k): the label word of the block's row p against the word of k. -/
theorem maskBlock_at (lb : IVec S16x1 32) (p : Fin 16) (k : Fin 512) :
    k0_pay2 (F := Ideal) lb (ix2 p k) = IntOp.cmpi .eq (lb (ix2 p (0 : Fin 1))) (BitVec.ofNat 32 k.val) := by
  unfold k0_pay2
  show IntOp.cmpi .eq (broadcastTo S16x512 (shapeCast S16x1 lb shapeCasts_S16x1_S16x1) broadcasts_S16x1_S16x512 (ix2 p k))
      (iota .tc S16x512 32 [1] iota_S16x512_d1_w32 (ix2 p k)) = _
  rw [iota_single_apply, shapeCast_self,
    broadcastTo_apply lb broadcasts_S16x1_S16x512 (ix2 p k) (ix2 p (0 : Fin 1)) (fun a => by
      match a with
      | ⟨0, _⟩ => show p.val = if (16 : Nat) = 1 then 0 else p.val; rw [if_neg (by decide)]
      | ⟨1, _⟩ => show 0 = if (1 : Nat) = 1 then 0 else k.val; rw [if_pos rfl])]

/-- The [16] → [16, 1] cast reads, at (p, 0), the vector at p. -/
theorem column_at {α : Type} (v : S16.Idx → α) (p : Fin 16) :
    shapeCast S16x1 v shapeCasts_S16_S16x1 (ix2 p (0 : Fin 1)) = v (ix1 p) :=
  shapeCast_apply v shapeCasts_S16_S16x1 (ix2 p (0 : Fin 1)) (ix1 p) (by
    rw [Shape.rowMajor_val_one, Shape.rowMajor_val_two]
    show p.val = p.val * 1 + 0
    omega)

/-- The first stored column at (p, 0): the distance block summed over the centres, the other centres' terms zeroed. -/
theorem ownBlock_at (xb : FVec Ideal S16x256 .f32) (cb : FVec Ideal S512x256 .f32) (lb : IVec S16x1 32) (p : Fin 16) :
    k0_pay3 (F := Ideal) xb cb lb (ix2 p (0 : Fin 1))
      = ∑ k : Fin 512, Scalar.select (IntOp.cmpi .eq (lb (ix2 p (0 : Fin 1))) (BitVec.ofNat 32 k.val))
          (∑ l : Fin 256, max (xb (ix2 p l) - cb (ix2 k l)) (-(xb (ix2 p l) - cb (ix2 k l))))
          (Ideal.ofBits .f32 0x00000000#32) := by
  unfold k0_pay3
  refine (column_at _ p).trans ?_
  refine (Ideal.multiReduction_add_single _ _ reduces_S16x512_S16 _ _ (ix1 p)).trans ?_
  refine Finset.sum_congr (s₁ := (Finset.univ : Finset (Fin 512))) rfl fun (k : Fin 512) _ => ?_
  have e : reduces_S16x512_S16.lift (ix1 p) k = (ix2 p k : S16x512.Idx) :=
    funext fun a => Fin.ext (by match a with | ⟨0, _⟩ => rfl | ⟨1, _⟩ => rfl)
  rw [e, select_apply, maskBlock_at, distBlock_at]
  rfl

/-- The second stored column at (p, 0): the fold of `min` from +∞ over the centres of the distance block, the own
    centre's term at +∞. -/
theorem nearestBlock_at (xb : FVec Ideal S16x256 .f32) (cb : FVec Ideal S512x256 .f32) (lb : IVec S16x1 32) (p : Fin 16) :
    k0_pay4 (F := Ideal) xb cb lb (ix2 p (0 : Fin 1))
      = (Finset.univ : Finset (Fin 512)).fold min (Ideal.ofBits .f32 0x7F800000#32)
          (fun k => Scalar.select (IntOp.cmpi .eq (lb (ix2 p (0 : Fin 1))) (BitVec.ofNat 32 k.val))
            (Ideal.ofBits .f32 0x7F800000#32)
            (∑ l : Fin 256, max (xb (ix2 p l) - cb (ix2 k l)) (-(xb (ix2 p l) - cb (ix2 k l))))) := by
  unfold k0_pay4
  refine (column_at _ p).trans ?_
  refine (multiReduction_minimumf_eq_fold _ _ reduces_S16x512_S16 _ _ (ix1 p)).trans ?_
  refine (reduces_S16x512_S16.fold_filter_drop_single FloatOps.minimumf _ _ (ix1 p)).trans ?_
  refine Finset.fold_congr (s := (Finset.univ : Finset (Fin 512))) fun (k : Fin 512) _ => ?_
  have e : reduces_S16x512_S16.lift (ix1 p) k = (ix2 p k : S16x512.Idx) :=
    funext fun a => Fin.ext (by match a with | ⟨0, _⟩ => rfl | ⟨1, _⟩ => rfl)
  show select (k0_pay2 (F := Ideal) lb) (broadcast S16x512 (Scalar.ofBits (F := Ideal) .f32 0x7F800000#32)) (k0_pay1 (F := Ideal) xb cb)
      (reduces_S16x512_S16.lift (ix1 p) k) = _
  rw [e, select_apply, maskBlock_at, distBlock_at]
  rfl

/-- When the three blocks are rows of whole arrays — the block's row p is row r of `X` with label word `LAB r`, and the
    centre block is `CEN` — the first stored column at (p, 0) is row r's distance to its own centre. -/
theorem ownBlock_eq (xb : FVec Ideal S16x256 .f32) (cb : FVec Ideal S512x256 .f32) (lb : IVec S16x1 32)
    (X : SX.Idx → EReal) (LAB : SRow.Idx → BitVec 32) (CEN : SCen.Idx → EReal) (p : Fin 16) (r : Fin 2048)
    (hx : ∀ l : Fin 256, xb (ix2 p l) = X (ix2 r l)) (hc : ∀ (k : Fin 512) (l : Fin 256), cb (ix2 k l) = CEN (ix2 k l))
    (hl : lb (ix2 p (0 : Fin 1)) = LAB (ix1 r)) :
    k0_pay3 (F := Ideal) xb cb lb (ix2 p (0 : Fin 1)) = own X LAB CEN r := by
  rw [ownBlock_at, hl]
  unfold own l1 isOwn
  refine Finset.sum_congr rfl fun k _ => ?_
  refine congrArg (fun d => Scalar.select _ d _) (Finset.sum_congr rfl fun l _ => ?_)
  rw [hx, hc]

/-- Under the same agreement the second stored column at (p, 0) is row r's least distance to another centre. -/
theorem nearestBlock_eq (xb : FVec Ideal S16x256 .f32) (cb : FVec Ideal S512x256 .f32) (lb : IVec S16x1 32)
    (X : SX.Idx → EReal) (LAB : SRow.Idx → BitVec 32) (CEN : SCen.Idx → EReal) (p : Fin 16) (r : Fin 2048)
    (hx : ∀ l : Fin 256, xb (ix2 p l) = X (ix2 r l)) (hc : ∀ (k : Fin 512) (l : Fin 256), cb (ix2 k l) = CEN (ix2 k l))
    (hl : lb (ix2 p (0 : Fin 1)) = LAB (ix1 r)) :
    k0_pay4 (F := Ideal) xb cb lb (ix2 p (0 : Fin 1)) = nearestOther X LAB CEN r := by
  rw [nearestBlock_at, hl]
  unfold nearestOther l1 isOwn
  refine Finset.fold_congr fun k _ => ?_
  refine congrArg (fun d => Scalar.select _ _ d) (Finset.sum_congr rfl fun l _ => ?_)
  rw [hx, hc]

end Cert.KernelIdeal.Hand

end
-- ==== Proof.Arrays.lean ====
/-
  The two output arrays after the kernel. Each is a [2048, 1] column written back in 128 blocks of 16 rows, one per
  grid point, and every point writes its block whole. Row p of the block written at point t is computed from row p
  of the row block and of the label block at t and from all the centres, so it is the value of ONE function of the
  argument arrays at row 16·t + p: the distance to the own centre for the first array, the least distance to another
  centre for the second. Row r of the array lies in the block of point r / 16, so the blocks cover the array and
  each array ends holding its function.
-/
import proofs.«114780_j47090021433771_1_alg».proof.Proof.Blocks
import proofs.«114780_j47090021433771_1_alg».proof.Proof.Payload

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.CenterMargin

variable (m : (ℓ : Loc nD τ sig) → Buf (Elt Ideal) ℓ)

/-- The three argument arrays the kernel reads, as plain functions of an index. -/
abbrev argX (c : Dev nD) : SX.Idx → EReal := m ((c : Thread nD τ).loc main_arg0)
abbrev argLab (c : Dev nD) : SRow.Idx → BitVec 32 := m ((c : Thread nD τ).loc main_arg1)
abbrev argCen (c : Dev nD) : SCen.Idx → EReal := m ((c : Thread nD τ).loc main_arg4)

/-- The first output column: entry (r, 0) is row r's distance to its own centre. -/
def ownCol (c : Dev nD) : SCol.Idx → EReal := fun j => own (argX m c) (argLab m c) (argCen m c) (j 0)
/-- The second output column: entry (r, 0) is row r's least distance to another centre. -/
def nearestCol (c : Dev nD) : SCol.Idx → EReal := fun j => nearestOther (argX m c) (argLab m c) (argCen m c) (j 0)

theorem zeroOffsets : (![0, 0] : Fin 2 → Nat) = fun _ => 0 := funext fun a => by fin_cases a <;> rfl

theorem points : cfg0.N = 128 := N_0

/-- What point t writes back to the first output is block t of `ownCol`. -/
theorem flushed_own (c : Dev nD) (t : Fin cfg0.N) :
    (dats m 0 c).flushed 3 t = ((cfg0.win 3).blk t).view.read (Elt Ideal) (ownCol m c) := by
  show (cfg0.win 3).cut (grid0.coords t) ((dats m 0 c).after 3 t) = _
  rw [after0_3]
  unfold out0_3
  rw [View.canon_unit_zero zeroOffsets]
  simp only [View.ld_unit_zero (S := S16x256) zeroOffsets, View.ld_unit_zero (S := S512x256) zeroOffsets,
    View.ld_unit_zero (S := S16x1) zeroOffsets]
  obtain ⟨-, -, -, -, -, -, e0, e1, -⟩ := idx_facts t
  have hN := points
  have ht : t.val < 128 := by have := t.isLt; omega
  refine funext fun (j : S16x1.Idx) => ?_
  have hj0 : (j 0).val < 16 := (j 0).isLt
  have hj1 : (j 1).val < 1 := (j 1).isLt
  have ej : j = ix2 (⟨(j 0).val, hj0⟩ : Fin 16) (0 : Fin 1) :=
    funext fun a => Fin.ext (by
      match a with
      | ⟨0, _⟩ => rfl
      | ⟨1, _⟩ => show (j 1).val = 0; omega)
  show k0_pay3 (F := Ideal) (iblk m c 0 t) (iblk m c 1 t) (iblk m c 2 t) j
      = ownCol m c (((cfg0.win 3).blk t).view.emb j)
  have eo : ownCol m c (((cfg0.win 3).blk t).view.emb j)
      = own (argX m c) (argLab m c) (argCen m c) (⟨t.val * 16 + (j 0).val, by omega⟩ : Fin 2048) := by
    unfold ownCol
    refine congrArg _ (Fin.ext ?_)
    show win0_3.index t (0 : Fin 2) * 16 + 1 * (j 0).val = t.val * 16 + (j 0).val
    omega
  rw [eo]
  refine (congrArg (k0_pay3 (F := Ideal) (iblk m c 0 t) (iblk m c 1 t) (iblk m c 2 t)) ej).trans ?_
  exact ownBlock_eq (iblk m c 0 t) (iblk m c 1 t) (iblk m c 2 t) (argX m c) (argLab m c) (argCen m c)
    (⟨(j 0).val, hj0⟩ : Fin 16) (⟨t.val * 16 + (j 0).val, by omega⟩ : Fin 2048)
    (fun l => rows_read m c t _ l _ rfl) (fun k l => cens_read m c t k l) (labs_read m c t _ _ rfl)

/-- What point t writes back to the second output is block t of `nearestCol`. -/
theorem flushed_nearest (c : Dev nD) (t : Fin cfg0.N) :
    (dats m 0 c).flushed 4 t = ((cfg0.win 4).blk t).view.read (Elt Ideal) (nearestCol m c) := by
  show (cfg0.win 4).cut (grid0.coords t) ((dats m 0 c).after 4 t) = _
  rw [after0_4]
  unfold out0_4
  rw [View.canon_unit_zero zeroOffsets]
  simp only [View.ld_unit_zero (S := S16x256) zeroOffsets, View.ld_unit_zero (S := S512x256) zeroOffsets,
    View.ld_unit_zero (S := S16x1) zeroOffsets]
  obtain ⟨-, -, -, -, -, -, -, -, e0, e1⟩ := idx_facts t
  have hN := points
  have ht : t.val < 128 := by have := t.isLt; omega
  refine funext fun (j : S16x1.Idx) => ?_
  have hj0 : (j 0).val < 16 := (j 0).isLt
  have hj1 : (j 1).val < 1 := (j 1).isLt
  have ej : j = ix2 (⟨(j 0).val, hj0⟩ : Fin 16) (0 : Fin 1) :=
    funext fun a => Fin.ext (by
      match a with
      | ⟨0, _⟩ => rfl
      | ⟨1, _⟩ => show (j 1).val = 0; omega)
  show k0_pay4 (F := Ideal) (iblk m c 0 t) (iblk m c 1 t) (iblk m c 2 t) j
      = nearestCol m c (((cfg0.win 4).blk t).view.emb j)
  have eo : nearestCol m c (((cfg0.win 4).blk t).view.emb j)
      = nearestOther (argX m c) (argLab m c) (argCen m c) (⟨t.val * 16 + (j 0).val, by omega⟩ : Fin 2048) := by
    unfold nearestCol
    refine congrArg _ (Fin.ext ?_)
    show win0_4.index t (0 : Fin 2) * 16 + 1 * (j 0).val = t.val * 16 + (j 0).val
    omega
  rw [eo]
  refine (congrArg (k0_pay4 (F := Ideal) (iblk m c 0 t) (iblk m c 1 t) (iblk m c 2 t)) ej).trans ?_
  exact nearestBlock_eq (iblk m c 0 t) (iblk m c 1 t) (iblk m c 2 t) (argX m c) (argLab m c) (argCen m c)
    (⟨(j 0).val, hj0⟩ : Fin 16) (⟨t.val * 16 + (j 0).val, by omega⟩ : Fin 2048)
    (fun l => rows_read m c t _ l _ rfl) (fun k l => cens_read m c t k l) (labs_read m c t _ _ rfl)

/-- An index of the first output is in point t's block iff each coordinate is in the block's range on its axis. -/
theorem mem_block_own (t : Fin cfg0.N) (i : S2048x1.Idx) :
    i ∈ ((cfg0.win 3).blk t).view.set
      ↔ ∀ a : Fin 2, win0_3.index t a * S16x1.size a ≤ (i a).val ∧ (i a).val < win0_3.index t a * S16x1.size a + S16x1.size a := by
  show i ∈ ((View.whole main_v1_0).slice (win0_3.rect t)).set ↔ _
  rw [View.set_slice_whole, Rect.mem_set_unit]
  exact Iff.rfl

/-- The same for the second output. -/
theorem mem_block_nearest (t : Fin cfg0.N) (i : S2048x1.Idx) :
    i ∈ ((cfg0.win 4).blk t).view.set
      ↔ ∀ a : Fin 2, win0_4.index t a * S16x1.size a ≤ (i a).val ∧ (i a).val < win0_4.index t a * S16x1.size a + S16x1.size a := by
  show i ∈ ((View.whole main_v1_1).slice (win0_4.rect t)).set ↔ _
  rw [View.set_slice_whole, Rect.mem_set_unit]
  exact Iff.rfl

/-- Row r of the first output is in the block of point r / 16, which is written back. -/
theorem cover_own (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  have hN := points
  have hq : (i 0).val / 16 < cfg0.N := by omega
  obtain ⟨-, -, -, -, -, -, e0, e1, -⟩ := idx_facts ⟨(i 0).val / 16, hq⟩
  refine ⟨⟨(i 0).val / 16, hq⟩, flush0_3 _, ?_⟩
  rw [mem_block_own]
  intro a
  match a with
  | ⟨0, _⟩ =>
    show win0_3.index ⟨(i 0).val / 16, hq⟩ (0 : Fin 2) * 16 ≤ (i 0).val
      ∧ (i 0).val < win0_3.index ⟨(i 0).val / 16, hq⟩ (0 : Fin 2) * 16 + 16
    rw [e0]
    show (i 0).val / 16 * 16 ≤ (i 0).val ∧ (i 0).val < (i 0).val / 16 * 16 + 16
    omega
  | ⟨1, _⟩ =>
    show win0_3.index ⟨(i 0).val / 16, hq⟩ (1 : Fin 2) * 1 ≤ (i 1).val
      ∧ (i 1).val < win0_3.index ⟨(i 0).val / 16, hq⟩ (1 : Fin 2) * 1 + 1
    omega

/-- The same for the second output. -/
theorem cover_nearest (i : S2048x1.Idx) :
    ∃ t : Fin cfg0.N, (cfg0.win 4).flush t = true ∧ i ∈ ((cfg0.win 4).blk t).view.set := by
  have hi0 : (i 0).val < 2048 := (i 0).isLt
  have hi1 : (i 1).val < 1 := (i 1).isLt
  have hN := points
  have hq : (i 0).val / 16 < cfg0.N := by omega
  obtain ⟨-, -, -, -, -, -, -, -, e0, e1⟩ := idx_facts ⟨(i 0).val / 16, hq⟩
  refine ⟨⟨(i 0).val / 16, hq⟩, flush0_4 _, ?_⟩
  rw [mem_block_nearest]
  intro a
  match a with
  | ⟨0, _⟩ =>
    show win0_4.index ⟨(i 0).val / 16, hq⟩ (0 : Fin 2) * 16 ≤ (i 0).val
      ∧ (i 0).val < win0_4.index ⟨(i 0).val / 16, hq⟩ (0 : Fin 2) * 16 + 16
    rw [e0]
    show (i 0).val / 16 * 16 ≤ (i 0).val ∧ (i 0).val < (i 0).val / 16 * 16 + 16
    omega
  | ⟨1, _⟩ =>
    show win0_4.index ⟨(i 0).val / 16, hq⟩ (1 : Fin 2) * 1 ≤ (i 1).val
      ∧ (i 1).val < win0_4.index ⟨(i 0).val / 16, hq⟩ (1 : Fin 2) * 1 + 1
    omega

/-- The first output array after the kernel. -/
theorem final_own (c : Dev nD) : (dats m 0 c).arrAt 3 cfg0.N = ownCol m c :=
  (dats m 0 c).arrAt_eq_of_cover 3 (ownCol m c) (fun t _ => flushed_own m c t) cover_own

/-- The second output array after the kernel. -/
theorem final_nearest (c : Dev nD) : (dats m 0 c).arrAt 4 cfg0.N = nearestCol m c :=
  (dats m 0 c).arrAt_eq_of_cover 4 (nearestCol m c) (fun t _ => flushed_nearest m c t) cover_nearest

end Cert.KernelIdeal.Hand

end
-- ==== Proof.KernelRun.lean ====
/-
  The kernel program's result. After the kernel the two [2048, 1] output columns hold, row by row, the distance to
  the own centre and the least distance to another centre. The host operations that follow reshape the columns to
  length-2048 vectors — entry r of the vector is entry (r, 0) of the column — and apply to them and to the margin
  scalar exactly the operations of the loss function, in its order, so the result buffer ends at the loss of the
  margin and of the specification's two vectors. The margin is an argument no operation writes, so it is still what
  the program was launched with. The five argument arrays end unchanged.
-/
import proofs.«114780_j47090021433771_1_alg».proof.Proof.Arrays

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.StableHlo
open Cert.CenterMargin

variable (m : (ℓ : Loc nD τ sig) → Buf (Elt Ideal) ℓ) (ρ : Dev nD → PrngReg)

set_option maxHeartbeats 2000000 in
/-- The host operations after the kernel, from any buffer contents `W`: the result buffer ends at the loss of the
    margin buffer and of the two output columns read as vectors. -/
theorem tail_of (W : Valuation τ sig (Elt Ideal)) :
    StableHlo.after (List.flatten [hostOps1, hostOps1_1, hostOps1_2]) W (Proc.devRef .tc main_v19)
      = lossOf reducesTo_S2048_S_d0 h_S_ bcast_S_S2048 (W (Proc.devRef .tc main_arg2))
          (shapeCast S2048 (W (Proc.devRef .tc main_v1_0) : S2048x1.Idx → EReal) shapeCasts_S2048x1_S2048)
          (shapeCast S2048 (W (Proc.devRef .tc main_v1_1) : S2048x1.Idx → EReal) shapeCasts_S2048x1_S2048) := by
  simp only [hostOps1, hostOps1_1, hostOps1_2, List.flatten_cons, List.flatten_nil, List.append_nil, List.cons_append,
    List.nil_append]
  after_results_simp <;> rfl

/-- A [2048, 1] column read as a length-2048 vector: entry r is the column's entry (r, 0). -/
theorem column_as_vector (v : SCol.Idx → EReal) (i : SRow.Idx) :
    shapeCast S2048 v shapeCasts_S2048x1_S2048 i = v (ix2 (i 0) (0 : Fin 1)) :=
  shapeCast_apply v shapeCasts_S2048x1_S2048 i (ix2 (i 0) (0 : Fin 1)) (by
    rw [Shape.rowMajor_val_one, Shape.rowMajor_val_two]
    show (i 0).val * 1 + 0 = (i 0).val
    omega)

theorem own_vector (c : Dev nD) :
    shapeCast S2048 (ownCol m c) shapeCasts_S2048x1_S2048 = ownVec (argX m c) (argLab m c) (argCen m c) :=
  funext fun i => column_as_vector (ownCol m c) i

theorem nearest_vector (c : Dev nD) :
    shapeCast S2048 (nearestCol m c) shapeCasts_S2048x1_S2048 = nearestOtherVec (argX m c) (argLab m c) (argCen m c) :=
  funext fun i => column_as_vector (nearestCol m c) i

/-- The result buffer after the whole program. -/
theorem result_eq (c : Dev nD) :
    Pipeline.afterTail₀ cfgs (dats m) 0 (V0 m) [hostOps1, hostOps1_1, hostOps1_2] c main_v19
      = lossOf reducesTo_S2048_S_d0 h_S_ bcast_S_S2048 (m ((c : Thread nD τ).loc main_arg2))
          (ownVec (argX m c) (argLab m c) (argCen m c)) (nearestOtherVec (argX m c) (argLab m c) (argCen m c)) := by
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e3 : Pipeline.withArrays (cfgs 0).spec c (V0 m c) (fun w => (dats m 0 c).arrAt w (cfgs 0).N) (Proc.devRef .tc main_v1_0)
      = ownCol m c :=
    (Pipeline.withArrays_arr spec0 launch0.win.arr_inj c _ _ 3).trans (final_own m c)
  have e4 : Pipeline.withArrays (cfgs 0).spec c (V0 m c) (fun w => (dats m 0 c).arrAt w (cfgs 0).N) (Proc.devRef .tc main_v1_1)
      = nearestCol m c :=
    (Pipeline.withArrays_arr spec0 launch0.win.arr_inj c _ _ 4).trans (final_nearest m c)
  unfold Pipeline.afterTail₀
  rw [tail_of, e2, e3, e4, own_vector, nearest_vector]

/-- The run of the kernel program, read: the result at the loss of the specification's vectors, the arguments
    unchanged. -/
theorem run : θ_run defs (onTc (τ := τ) (main (F := Ideal))) ⟨m, fun _ => 0, ρ⟩ fun r => ∀ c : Dev nD,
      r.2.mem ((c.tc : Thread nD τ).loc main_v19)
        = lossOf reducesTo_S2048_S_d0 h_S_ bcast_S_S2048 (m ((c : Thread nD τ).loc main_arg2))
            (ownVec (argX m c) (argLab m c) (argCen m c)) (nearestOtherVec (argX m c) (argLab m c) (argCen m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v19 (Pipeline.mem_restRefs_of main_v19 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c)))⟩)
    (run_main m ρ)

end Cert.KernelIdeal.Hand

end
-- ==== Proof.RefSide.lean ====
/-
  The reference computes the specification. Its result is the loss function of the margin and of two length-2048
  vectors; the first is, row by row, the sum over the 512 centres of the masked L1 distances, the second the minimum from
  +∞ of the oppositely masked ones. Each intermediate array of the reference is read at an index built from a row
  `r`, a centre `k` and a feature `l`: a broadcast reads its operand at the coordinates it keeps, the iota along the
  centre axis reads the centre's number, a sum over the last axis is the initial +0.0 plus the sum over that axis's
  coordinates, and the minimum over the centre axis is the fold of `min` over that axis's coordinates in any order.
-/
import proofs.«114780_j47090021433771_1_alg».proof.Proof.Gen.ReferenceIdeal.Read
import proofs.«114780_j47090021433771_1_alg».proof.Proof.Spec
import Idealize.ShloMosaic.PureOps.Reduce

noncomputable section

namespace Cert.ReferenceIdeal.Hand

open Cert.ReferenceIdeal Cert.ReferenceIdeal.Gen Cert.ReferenceIdeal.Read
open Idealize.ShloMosaic Idealize.ShloMosaic.ValueIdx Cert.CenterMargin

/-- The [2048, 512] distance matrix at (r, k) is the L1 distance of row r to centre k. -/
theorem dist_at (x0 : FVec Ideal S2048x256 .f32) (x4 : FVec Ideal S512x256 .f32) (r : Fin 2048) (k : Fin 512) :
    val_main_v6 (F := Ideal) x0 x4 (ix2 r k) = l1 x0 x4 r k := by
  rw [val_main_v6_apply]
  simp only [val_main_v5_apply, val_main_v4_apply, val_main_v2_apply, val_main_v0_apply, val_main_v3_apply,
    val_main_v1_apply, val_main_cst_apply, Ideal.ofBits_def, Ideal.ofBits_zero_f32, zero_add, Ideal.hostAbsf_def,
    Ideal.absf_def, Ideal.subf_def]
  unfold l1
  refine Finset.sum_congr rfl fun l _ => ?_
  have e0 : idx_main_v0 (idx_main_v2 (idx_main_v6 (ix2 r k) l)) = ix2 r l :=
    funext fun a => Fin.ext (by match a with | ⟨0, _⟩ => rfl | ⟨1, _⟩ => rfl)
  have e1 : idx_main_v1 (idx_main_v3 (idx_main_v6 (ix2 r k) l)) = ix2 k l :=
    funext fun a => Fin.ext (by match a with | ⟨0, _⟩ => rfl | ⟨1, _⟩ => rfl)
  rw [e0, e1]

/-- The mask at (r, k) compares row r's label word with the word of k. -/
theorem mask_at (x1 : IVec S2048 32) (r : Fin 2048) (k : Fin 512) :
    val_main_v12 (F := Ideal) x1 (ix2 r k) = isOwn x1 r k := by
  simp only [val_main_v12_apply, val_main_v10_apply, val_main_v7_apply, val_main_v11_apply, val_main_v9_apply,
    val_main_v8_apply]
  unfold isOwn
  have e : idx_main_v7 (idx_main_v10 (ix2 r k)) = ix1 r :=
    funext fun a => Fin.ext (by match a with | ⟨0, _⟩ => rfl)
  rw [e]

/-- The first per-row vector at r is the distance to the own centre. -/
theorem own_at (x0 : FVec Ideal S2048x256 .f32) (x1 : IVec S2048 32) (x4 : FVec Ideal S512x256 .f32) (r : Fin 2048) :
    val_main_v14 (F := Ideal) x0 x1 x4 (ix1 r) = own x0 x1 x4 r := by
  rw [val_main_v14_apply]
  simp only [val_main_cst_1_apply, Ideal.ofBits_def, Ideal.ofBits_zero_f32, zero_add]
  unfold own
  refine Finset.sum_congr rfl fun k _ => ?_
  have e : idx_main_v14 (ix1 r) k = ix2 r k :=
    funext fun a => Fin.ext (by match a with | ⟨0, _⟩ => rfl | ⟨1, _⟩ => rfl)
  rw [e, val_main_v13_apply, mask_at, dist_at, val_main_call0_v0_apply, val_main_cst_0_apply]
  rfl

/-- The second per-row vector at r is the least distance to another centre. -/
theorem nearestOther_at (x0 : FVec Ideal S2048x256 .f32) (x1 : IVec S2048 32) (x4 : FVec Ideal S512x256 .f32) (r : Fin 2048) :
    val_main_v16 (F := Ideal) x0 x1 x4 (ix1 r) = nearestOther x0 x1 x4 r := by
  unfold val_main_v16
  have h : S2048x512.Reduces [1] S2048 := by decide
  rw [Host.reduce_eq_fold_single FloatOps.minimumf _ _ reducesTo_S2048x512_S2048_d1 h h_S_ (ix1 r)]
  unfold nearestOther
  show (Finset.univ : Finset (Fin 512)).fold min (Ideal.ofBits .f32 infBits)
      (fun k : Fin 512 => val_main_v15 (F := Ideal) x0 x1 x4 (h.lift (ix1 r) k)) = _
  refine Finset.fold_congr (s := (Finset.univ : Finset (Fin 512))) fun (k : Fin 512) _ => ?_
  have e : h.lift (ix1 r) k = (ix2 r k : S2048x512.Idx) :=
    funext fun a => Fin.ext (by match a with | ⟨0, _⟩ => rfl | ⟨1, _⟩ => rfl)
  rw [e, val_main_v15_apply, mask_at, dist_at, val_main_call1_v1_apply, val_main_call1_v0_apply, val_main_cst_2_apply]
  rfl

theorem ownVec_eq (x0 : FVec Ideal S2048x256 .f32) (x1 : IVec S2048 32) (x4 : FVec Ideal S512x256 .f32) :
    val_main_v14 (F := Ideal) x0 x1 x4 = ownVec x0 x1 x4 :=
  funext fun i => by rw [eq_ix1 i]; exact own_at x0 x1 x4 (i 0)

theorem nearestOtherVec_eq (x0 : FVec Ideal S2048x256 .f32) (x1 : IVec S2048 32) (x4 : FVec Ideal S512x256 .f32) :
    val_main_v16 (F := Ideal) x0 x1 x4 = nearestOtherVec x0 x1 x4 :=
  funext fun i => by rw [eq_ix1 i]; exact nearestOther_at x0 x1 x4 (i 0)

/-- The reference's result is the loss function of the margin and of its two per-row vectors: the same operations
    in the same order. -/
theorem result_shape (x0 : FVec Ideal S2048x256 .f32) (x1 : IVec S2048 32) (x2 : FVec Ideal S_ .f32) (x4 : FVec Ideal S512x256 .f32) :
    val_main_v32 (F := Ideal) x0 x1 x2 x4
      = lossOf reducesTo_S2048_S_d0 h_S_ bcast_S_S2048 x2 (val_main_v14 (F := Ideal) x0 x1 x4) (val_main_v16 (F := Ideal) x0 x1 x4) := rfl

/-- So the reference's result is the loss of the specification's two vectors. -/
theorem result_eq (x0 : FVec Ideal S2048x256 .f32) (x1 : IVec S2048 32) (x2 : FVec Ideal S_ .f32) (x4 : FVec Ideal S512x256 .f32) :
    val_main_v32 (F := Ideal) x0 x1 x2 x4
      = lossOf reducesTo_S2048_S_d0 h_S_ bcast_S_S2048 x2 (ownVec x0 x1 x4) (nearestOtherVec x0 x1 x4) := by
  rw [result_shape, ownVec_eq, nearestOtherVec_eq]

end Cert.ReferenceIdeal.Hand

end
-- ==== Proof.lean ====
/- The proof of `Cert.Claim`: a masked L1 nearest-centre margin loss computed by a tiled kernel equals its plain
   reference on the extended reals.

   Both programs take 2048 feature rows, an integer label per row, a margin scalar and 512 class centres. For each
   row they form the L1 distances to all centres, keep the distance to the row's own centre (a sum over the centres
   with every other term zeroed) and the least distance to another centre (a minimum from +∞ over the centres with the
   own term at +∞), and then apply one and the same scalar recipe to the margin and these two length-2048 vectors.
   The kernel differs from the reference only in arrangement: it walks the rows in 128 blocks of 16, writes the two
   vectors as [2048, 1] columns that the host reshapes back, and accumulates its sums and minima in its own order.
   On the extended reals + and min are commutative and associative, so the arrangement does not change the values and
   no finiteness of the inputs is used.

   Proof/Spec.lean states the two per-row quantities and the loss recipe once; Proof/RefSide.lean reads the
   reference's result as the recipe applied to them; Proof/Payload.lean, Blocks.lean, Arrays.lean and KernelRun.lean
   read the kernel program's result as the same term; the claims are assembled below. The three frame claims are the
   programs' runs with the result dropped, and the idealization rewrote nothing, so `preserves` is trivial. -/
import proofs.«114780_j47090021433771_1_alg».proof.Defs
import proofs.«114780_j47090021433771_1_alg».proof.Proof.Gen.Kernel
import proofs.«114780_j47090021433771_1_alg».proof.Proof.Gen.Kernel.Skeleton
import proofs.«114780_j47090021433771_1_alg».proof.Proof.Gen.Kernel.Launch
import proofs.«114780_j47090021433771_1_alg».proof.Proof.Gen.Kernel.Points
import proofs.«114780_j47090021433771_1_alg».proof.Proof.Gen.Kernel.Frame
import proofs.«114780_j47090021433771_1_alg».proof.Proof.Gen.KernelIdeal
import proofs.«114780_j47090021433771_1_alg».proof.Proof.Gen.KernelIdeal.Skeleton
import proofs.«114780_j47090021433771_1_alg».proof.Proof.Gen.KernelIdeal.Launch
import proofs.«114780_j47090021433771_1_alg».proof.Proof.Gen.KernelIdeal.Points
import proofs.«114780_j47090021433771_1_alg».proof.Proof.Gen.KernelIdeal.Frame
import proofs.«114780_j47090021433771_1_alg».proof.Proof.Gen.ReferenceIdeal
import proofs.«114780_j47090021433771_1_alg».proof.Proof.Gen.Pre_finite_inputs
import proofs.«114780_j47090021433771_1_alg».proof.Proof.Gen.ReferenceIdeal.Run
import proofs.«114780_j47090021433771_1_alg».proof.Proof.Gen.ReferenceIdeal.Read
import proofs.«114780_j47090021433771_1_alg».proof.Proof.KernelRun
import proofs.«114780_j47090021433771_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the loss of the margin and of the
    two per-row vectors of the specification: the kernel program by its run read back, the reference by its own
    operations read at an index. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Hand.result_eq, (hagree c).1, (hagree c).2.1,
    (hagree c).2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
